-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S10000x128 .f32) (main_arg1 : FVec F S10000x10000 .f32) (main_arg2 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S256x128 : Shape := ⟨2, ![256, 128]⟩
abbrev S400x10000 : Shape := ⟨2, ![400, 10000]⟩
abbrev S400x128 : Shape := ⟨2, ![400, 128]⟩
abbrev S128x128 : Shape := ⟨2, ![128, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S256x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  h_S400x128 : 0 < S400x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S10000x256 : Shape := ⟨2, ![10000, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S10000x128, .f32⟩
  | .hbm, ⟨4, _⟩ => ⟨S10000x256, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.SageSpec.lean ====
/-
  A dense-adjacency mean-aggregation graph layer, as one function of its three arrays.

  For node features `x` (10000 nodes, 128 features), a dense adjacency matrix `adj` (10000 by 10000) and a weight
  matrix `w` (256 by 128), node `r`'s aggregated neighbourhood is `aggr r c = Σₖ adj (r, k) · x (k, c)`, and the layer's
  output at `(r, q)` is the larger of zero and

      Σ_c x (r, c) · w (c, q)  +  Σ_c aggr r c · w (128 + c, q),

  the node's own features against the upper half of the weights plus its neighbourhood against the lower half.

  Laying a node's own features and its neighbourhood side by side as one row of 256 entries and contracting that row
  with all 256 weight rows gives the same number: a sum over 256 positions is the sum over its first 128 positions
  plus the sum over its last 128, which holds in any commutative monoid, so on the extended reals without any
  finiteness assumption (`sum_halves`).
-/
import Idealize.ShloMosaic.PureOps.Ideal
import Idealize.ShloMosaic.Lib.ValueIdx

noncomputable section

open scoped BigOperators

namespace Cert.Sage

open Idealize.ShloMosaic Idealize.ShloMosaic.ValueIdx

/-- Position `c` of the first half of a row of 256. -/
def lo (c : Fin 128) : Fin 256 := ⟨c.val, by have := c.isLt; omega⟩

/-- Position `128 + c` of a row of 256: position `c` of its second half. -/
def hi (c : Fin 128) : Fin 256 := ⟨128 + c.val, by have := c.isLt; omega⟩

/-- A sum over 256 positions is the sum over the first 128 plus the sum over the last 128. -/
theorem sum_halves {M : Type} [AddCommMonoid M] (f : Fin 256 → M) :
    ∑ k : Fin 256, f k = ∑ c : Fin 128, f (lo c) + ∑ c : Fin 128, f (hi c) :=
  Fin.sum_univ_add (a := 128) (b := 128) (f : Fin (128 + 128) → M)

/-- Node `r`'s aggregated neighbourhood at feature `c`: `Σₖ adj (r, k) · x (k, c)`. -/
def aggr (x : (⟨2, ![10000, 128]⟩ : Shape).Idx → EReal) (adj : (⟨2, ![10000, 10000]⟩ : Shape).Idx → EReal)
    (r : Fin 10000) (c : Fin 128) : EReal :=
  ∑ k : Fin 10000, adj (ix2 r k) * x (ix2 k c)

/-- The layer before the clamp at `(r, q)`: own features against the upper weight rows plus the neighbourhood against
    the lower ones. -/
def combine (x : (⟨2, ![10000, 128]⟩ : Shape).Idx → EReal) (adj : (⟨2, ![10000, 10000]⟩ : Shape).Idx → EReal)
    (w : (⟨2, ![256, 128]⟩ : Shape).Idx → EReal) (r : Fin 10000) (q : Fin 128) : EReal :=
  (∑ c : Fin 128, x (ix2 r c) * w (ix2 (lo c) q)) + ∑ c : Fin 128, aggr x adj r c * w (ix2 (hi c) q)

/-- The layer's output array: at `(r, q)` the larger of `combine` and the zero word's value. -/
def layer (x : (⟨2, ![10000, 128]⟩ : Shape).Idx → EReal) (adj : (⟨2, ![10000, 10000]⟩ : Shape).Idx → EReal)
    (w : (⟨2, ![256, 128]⟩ : Shape).Idx → EReal) : (⟨2, ![10000, 128]⟩ : Shape).Idx → EReal :=
  fun i => FloatOps.maximumf (F := Ideal) (φ := .f32) (combine x adj w (i 0) (i 1)) (FloatOps.ofBits (F := Ideal) .f32 0x00000000#32)

theorem layer_apply (x : (⟨2, ![10000, 128]⟩ : Shape).Idx → EReal) (adj : (⟨2, ![10000, 10000]⟩ : Shape).Idx → EReal)
    (w : (⟨2, ![256, 128]⟩ : Shape).Idx → EReal) (r : Fin 10000) (q : Fin 128) :
    layer x adj w (ix2 r q)
      = FloatOps.maximumf (F := Ideal) (φ := .f32) (combine x adj w r q) (FloatOps.ofBits (F := Ideal) .f32 0x00000000#32) := rfl

end Cert.Sage

end
-- ==== Proof.LibConcat2.lean ====
/-
  Two matrices laid side by side, or one on top of the other, read at coordinates.

  A concatenation of two pieces locates the coordinate on the joined axis among the pieces' extents: below the first
  extent it reads the first piece at the same coordinates, from the first extent on it reads the second piece with the
  first extent subtracted on that axis. For matrices joined along their columns (`[a, b]` and `[a, c]` into `[a, n]`) or
  along their rows (`[b, d]` and `[c, d]` into `[n, d]`) these are the four readings below, each at an index written by
  its two coordinates; the caller names the piece's coordinate and gives the one equation that relates it to the joined one.
-/
import Idealize.ShloMosaic.Lib.Pipeline.Value
import Idealize.ShloMosaic.Lib.ValueIdx

namespace Cert.Lib.Concat2

open Idealize.ShloMosaic Idealize.ShloMosaic.ValueIdx

variable {α : Type}

/-- Side by side, `[a, b]` then `[a, c]`: at a column `q` below `b` the joined matrix reads the left piece at `(p, q)`. -/
theorem cols_left {a b c n : ℕ} (x : (⟨2, ![a, b]⟩ : Shape).Idx → α) (y : (⟨2, ![a, c]⟩ : Shape).Idx → α)
    (h : Shape.Concatenates [⟨2, ![a, b]⟩, ⟨2, ![a, c]⟩] ⟨2, ![a, n]⟩ 1) (p : Fin a) (q : Fin n) (q' : Fin b)
    (hq : q'.val = q.val) :
    concatenate ⟨2, ![a, n]⟩ 1 [⟨⟨2, ![a, b]⟩, x⟩, ⟨⟨2, ![a, c]⟩, y⟩] h (ix2 p q) = x (ix2 p q') :=
  concatenate_pair_apply_left (t := ⟨2, ![a, n]⟩) (s₁ := ⟨2, ![a, b]⟩) (s₂ := ⟨2, ![a, c]⟩) 1 x y h (ix2 p q) rfl (ix2 p q')
    (fun ax => by
      match ax with
      | ⟨0, _⟩ => rfl
      | ⟨1, _⟩ => exact hq)

/-- Side by side, `[a, b]` then `[a, c]`: at a column `q = q' + b` the joined matrix reads the right piece at `(p, q')`. -/
theorem cols_right {a b c n : ℕ} (x : (⟨2, ![a, b]⟩ : Shape).Idx → α) (y : (⟨2, ![a, c]⟩ : Shape).Idx → α)
    (h : Shape.Concatenates [⟨2, ![a, b]⟩, ⟨2, ![a, c]⟩] ⟨2, ![a, n]⟩ 1) (p : Fin a) (q : Fin n) (q' : Fin c)
    (hq : q'.val + b = q.val) :
    concatenate ⟨2, ![a, n]⟩ 1 [⟨⟨2, ![a, b]⟩, x⟩, ⟨⟨2, ![a, c]⟩, y⟩] h (ix2 p q) = y (ix2 p q') :=
  concatenate_pair_apply_right (t := ⟨2, ![a, n]⟩) (s₁ := ⟨2, ![a, b]⟩) (s₂ := ⟨2, ![a, c]⟩) 1 x y h (ix2 p q) rfl rfl (ix2 p q')
    (fun ax hax => by
      match ax with
      | ⟨0, _⟩ => rfl
      | ⟨1, _⟩ => exact absurd rfl hax)
    hq

/-- One on top of the other, `[b, d]` then `[c, d]`: at a row `p` below `b` the joined matrix reads the upper piece at `(p, q)`. -/
theorem rows_top {b c d n : ℕ} (x : (⟨2, ![b, d]⟩ : Shape).Idx → α) (y : (⟨2, ![c, d]⟩ : Shape).Idx → α)
    (h : Shape.Concatenates [⟨2, ![b, d]⟩, ⟨2, ![c, d]⟩] ⟨2, ![n, d]⟩ 0) (p : Fin n) (q : Fin d) (p' : Fin b)
    (hp : p'.val = p.val) :
    concatenate ⟨2, ![n, d]⟩ 0 [⟨⟨2, ![b, d]⟩, x⟩, ⟨⟨2, ![c, d]⟩, y⟩] h (ix2 p q) = x (ix2 p' q) :=
  concatenate_pair_apply_left (t := ⟨2, ![n, d]⟩) (s₁ := ⟨2, ![b, d]⟩) (s₂ := ⟨2, ![c, d]⟩) 0 x y h (ix2 p q) rfl (ix2 p' q)
    (fun ax => by
      match ax with
      | ⟨0, _⟩ => exact hp
      | ⟨1, _⟩ => rfl)

/-- One on top of the other, `[b, d]` then `[c, d]`: at a row `p = p' + b` the joined matrix reads the lower piece at `(p', q)`. -/
theorem rows_bottom {b c d n : ℕ} (x : (⟨2, ![b, d]⟩ : Shape).Idx → α) (y : (⟨2, ![c, d]⟩ : Shape).Idx → α)
    (h : Shape.Concatenates [⟨2, ![b, d]⟩, ⟨2, ![c, d]⟩] ⟨2, ![n, d]⟩ 0) (p : Fin n) (q : Fin d) (p' : Fin c)
    (hp : p'.val + b = p.val) :
    concatenate ⟨2, ![n, d]⟩ 0 [⟨⟨2, ![b, d]⟩, x⟩, ⟨⟨2, ![c, d]⟩, y⟩] h (ix2 p q) = y (ix2 p' q) :=
  concatenate_pair_apply_right (t := ⟨2, ![n, d]⟩) (s₁ := ⟨2, ![b, d]⟩) (s₂ := ⟨2, ![c, d]⟩) 0 x y h (ix2 p q) rfl rfl (ix2 p' q)
    (fun ax hax => by
      match ax with
      | ⟨0, _⟩ => exact absurd rfl hax
      | ⟨1, _⟩ => rfl)
    hp

end Cert.Lib.Concat2
-- ==== Proof.RefIsLayer.lean ====
/-
  The reference computes the layer.

  The reference forms the neighbourhood matrix `adj · x`, lays `x` and that matrix side by side as 256 columns,
  multiplies the 256-column matrix by the whole weight matrix and clamps at zero. Read at `(r, q)`, the product is a
  sum over the 256 columns; the first 128 columns are `x`'s row `r` and the last 128 the neighbourhood's row `r`, so
  splitting the sum at column 128 gives the layer's two terms (`Cert.Sage.sum_halves`).
-/
import proofs.«123439_g41875931136731_cont_8to1_b_1800_19_alg».proof.Proof.Gen.ReferenceIdeal.Read
import proofs.«123439_g41875931136731_cont_8to1_b_1800_19_alg».proof.Proof.SageSpec
import proofs.«123439_g41875931136731_cont_8to1_b_1800_19_alg».proof.Proof.LibConcat2

noncomputable section

open scoped BigOperators

namespace Cert.Sage.Ref

open Cert.ReferenceIdeal Cert.ReferenceIdeal.Gen Cert.ReferenceIdeal.Read Idealize.ShloMosaic Idealize.ShloMosaic.ValueIdx Cert.Sage

/-- The left operand of the second product at `(r, q)` and column `k` is read at `(r, k)`. -/
theorem lidx2 (r : Fin 10000) (q : Fin 128) (k : Fin 256) : lidx_main_v2 (ix2 r q) k = ix2 r k :=
  funext fun a => Fin.ext (by match a with | ⟨0, _⟩ => rfl | ⟨1, _⟩ => rfl)

/-- The weights at `(r, q)` and column `k` are read at `(k, q)`. -/
theorem ridx2 (r : Fin 10000) (q : Fin 128) (k : Fin 256) : ridx_main_v2 (ix2 r q) k = ix2 k q :=
  funext fun a => Fin.ext (by match a with | ⟨0, _⟩ => rfl | ⟨1, _⟩ => rfl)

/-- The adjacency matrix at `(r, c)` and neighbour `k` is read at `(r, k)`. -/
theorem lidx0 (r : Fin 10000) (c : Fin 128) (k : Fin 10000) : lidx_main_v0 (ix2 r c) k = ix2 r k :=
  funext fun a => Fin.ext (by match a with | ⟨0, _⟩ => rfl | ⟨1, _⟩ => rfl)

/-- The features at `(r, c)` and neighbour `k` are read at `(k, c)`. -/
theorem ridx0 (r : Fin 10000) (c : Fin 128) (k : Fin 10000) : ridx_main_v0 (ix2 r c) k = ix2 k c :=
  funext fun a => Fin.ext (by match a with | ⟨0, _⟩ => rfl | ⟨1, _⟩ => rfl)

/-- The reference's first product is the aggregated neighbourhood. -/
theorem neighbourhood (x0 : (⟨S10000x128, .f32⟩ : BufTy).Contents (Elt Ideal)) (x1 : (⟨S10000x10000, .f32⟩ : BufTy).Contents (Elt Ideal))
    (r : Fin 10000) (c : Fin 128) : val_main_v0 (F := Ideal) x0 x1 (ix2 r c) = aggr x0 x1 r c := by
  rw [val_main_v0_apply]
  unfold aggr
  exact Finset.sum_congr rfl fun k _ => by rw [lidx0, ridx0]

/-- Column `c` of the side-by-side matrix, `c` below 128, is `x`'s column `c`. -/
theorem joined_lo (x0 : (⟨S10000x128, .f32⟩ : BufTy).Contents (Elt Ideal)) (x1 : (⟨S10000x10000, .f32⟩ : BufTy).Contents (Elt Ideal))
    (r : Fin 10000) (c : Fin 128) : val_main_v1 (F := Ideal) x0 x1 (ix2 r (lo c)) = x0 (ix2 r c) :=
  Cert.Lib.Concat2.cols_left (a := 10000) (b := 128) (c := 128) (n := 256) x0 (val_main_v0 (F := Ideal) x0 x1)
    concatenates_S10000x128_S10000x128_S10000x256_d1 r (lo c) c rfl

/-- Column `128 + c` of the side-by-side matrix is the neighbourhood's column `c`. -/
theorem joined_hi (x0 : (⟨S10000x128, .f32⟩ : BufTy).Contents (Elt Ideal)) (x1 : (⟨S10000x10000, .f32⟩ : BufTy).Contents (Elt Ideal))
    (r : Fin 10000) (c : Fin 128) : val_main_v1 (F := Ideal) x0 x1 (ix2 r (hi c)) = aggr x0 x1 r c :=
  (Cert.Lib.Concat2.cols_right (a := 10000) (b := 128) (c := 128) (n := 256) x0 (val_main_v0 (F := Ideal) x0 x1)
    concatenates_S10000x128_S10000x128_S10000x256_d1 r (hi c) c (by show c.val + 128 = 128 + c.val; omega)).trans
    (neighbourhood x0 x1 r c)

/-- THE REFERENCE'S RESULT IS THE LAYER of its three arguments. -/
theorem result_is_layer (x0 : (⟨S10000x128, .f32⟩ : BufTy).Contents (Elt Ideal)) (x1 : (⟨S10000x10000, .f32⟩ : BufTy).Contents (Elt Ideal))
    (x2 : (⟨S256x128, .f32⟩ : BufTy).Contents (Elt Ideal)) :
    val_main_v3 (F := Ideal) x0 x1 x2 = layer x0 x1 x2 := by
  funext i
  obtain ⟨r, q, rfl⟩ : ∃ (r : Fin 10000) (q : Fin 128), i = ix2 r q := ⟨i 0, i 1, eq_ix2 i⟩
  rw [val_main_v3_apply, val_main_v2_apply, val_main_call0_v0_apply, val_main_call0_cst_apply, layer_apply, sum_halves]
  unfold combine
  refine congrArg (fun a : EReal => FloatOps.maximumf (F := Ideal) (φ := .f32) a (FloatOps.ofBits (F := Ideal) .f32 0x00000000#32)) ?_
  refine congrArg₂ (fun a b : EReal => a + b) (Finset.sum_congr rfl fun c _ => ?_) (Finset.sum_congr rfl fun c _ => ?_)
  · rw [lidx2, ridx2, joined_lo]
  · rw [lidx2, ridx2, joined_hi]

end Cert.Sage.Ref

end
-- ==== Proof.CaseIsPayload.lean ====
/-
  What the body leaves in the output's staging buffer at one grid point.

  The body makes one store, through the rectangle that is the whole 400 by 128 staging buffer, so what the buffer
  holds afterwards is that store's value: the stored value of `Cert.Sage.Body` computed from the body's five loads.
  Two of the loads read a whole input buffer (the adjacency block and the feature matrix) and so return the
  buffer's contents; the other three read rectangles — 400 rows of the feature matrix starting at the row the grid
  point selects, and the upper and lower 128 rows of the weight matrix. Stated for any float values.
-/
import proofs.«123439_g41875931136731_cont_8to1_b_1800_19_alg».proof.Proof.Gen.KernelIdeal.Frame
import Idealize.ShloMosaic.Lib.Pipeline.Value
import Idealize.ShloMosaic.Lib.Tactic

set_option maxRecDepth 16384

noncomputable section

namespace Cert.Sage.Case

open Cert.KernelIdeal Cert.KernelIdeal.Gen Idealize.ShloMosaic Idealize.ShloMosaic.TcCoe Idealize.SL.Sem

variable {F : FTy → Type} [FloatOps F]

/-- The offsets `(0, 0)` are zero on every axis. -/
theorem origin : (![0, 0] : Fin 2 → Nat) = fun _ => 0 := funext fun a => by fin_cases a <;> rfl

/-- The staging buffer after the body: the stored value of the adjacency block `x0`, the feature matrix `x1`, the
    rows of `x1` from the grid point's row offset, and the upper and lower halves of the weights `x2`. -/
theorem left_in_buffer (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S256x128 .f32) (harg3 : arg3.IsWhole)
    (arg4 : Memref sig .tc .vmem S400x128 .f32) (harg4 : arg4.IsWhole)
    (x0 : Vec F S400x10000 .f32) (x1 : Vec F S10000x128 .f32) (x2 : Vec F S256x128 .f32) :
    out0_A_3 c i arg1 harg1 arg2 harg2 arg3 harg3 arg4 harg4 x0 x1 x2
      = k0_pay1 x0 x1 (View.ld x1 (Rect.unit (s := S10000x128) (k0_off1 i) S400x128.size (k0_off1_inb i)))
          (View.ld x2 (Rect.unit (s := S256x128) ![0, 0] S128x128.size inb_S256x128_S128x128_0_0))
          (View.ld x2 (Rect.unit (s := S256x128) ![128, 0] S128x128.size inb_S256x128_S128x128_128_0)) := by
  unfold out0_A_3
  rw [View.read_writes_eq_canon _ _ _ (cover0_A_3 c i arg1 harg1 arg2 harg2 arg3 harg3 arg4 harg4 x0 x1 x2)]
  unfold kernelRun0_A
  dsimp only
  rw [View.canon_unit_zero origin]
  simp only [View.readAt_eq_ld, harg1.read_unread, harg2.read_unread, harg3.read_unread,
    View.ld_unit_zero (S := S400x10000) origin, View.ld_unit_zero (S := S10000x128) origin]

end Cert.Sage.Case

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.PayloadAtIndex.lean ====
/-
  The kernel body's stored value, read at an index.

  At one grid point the body holds a block `a` of 400 rows of the adjacency matrix, the whole feature matrix `x`, the
  same 400 rows `xr` of `x`, and the upper and lower halves `wu`, `wl` of the weight matrix. It stores, at `(p, q)`,
  the larger of zero and `Σ_c xr (p, c) · wu (c, q) + Σ_c (Σₖ a (p, k) · x (k, c)) · wl (c, q)`: three matrix products
  into zero accumulators (the narrowing of the first product's operands to a shorter float format is the identity on
  extended reals), a sum and a clamp.

  When the block's rows are rows `R` of the arrays and the halves are the weight rows `c` and `128 + c`, that is the
  layer at `(R, q)`.
-/
import proofs.«123439_g41875931136731_cont_8to1_b_1800_19_alg».proof.Proof.Gen.KernelIdeal.Skeleton
import proofs.«123439_g41875931136731_cont_8to1_b_1800_19_alg».proof.Proof.SageSpec
import proofs.«123439_g41875931136731_cont_8to1_b_1800_19_alg».proof.Proof.LibPlainMatmul
import Idealize.ShloMosaic.Lib.ValueIdx
import Idealize.ShloMosaic.PureOps.Ideal.Laws

noncomputable section

open scoped BigOperators

namespace Cert.Sage.Body

open Cert.KernelIdeal Cert.KernelIdeal.Gen Idealize.ShloMosaic Idealize.ShloMosaic.ValueIdx Cert.Sage

/-- The stored value at `(p, q)`, as sums over the contracted coordinates. -/
theorem stored_apply (a : Vec Ideal S400x10000 .f32) (x : Vec Ideal S10000x128 .f32) (xr : Vec Ideal S400x128 .f32)
    (wu wl : Vec Ideal S128x128 .f32) (p : Fin 400) (q : Fin 128) :
    k0_pay1 (F := Ideal) a x xr wu wl (ix2 p q)
      = max ((∑ c : Fin 128, xr (ix2 p c) * wu (ix2 c q))
            + ∑ c : Fin 128, (∑ k : Fin 10000, a (ix2 p k) * x (ix2 k c)) * wl (ix2 c q))
          (Ideal.ofBits .f32 0x00000000#32) := by
  unfold k0_pay1
  rw [maximumf_apply, addf_apply, broadcast_apply]
  refine congrArg₂ max (congrArg₂ (fun s u : EReal => s + u) ?_ ?_) rfl
  · exact Idealize.ShloMosaic.PlainMatmul.matmul_zero_apply (M := 400) (K := 128) (N := 128)
      dot_S400x128_S128x128_S400x128_1_0_0_1_n_n rfl rfl rfl rfl rfl rfl none xr wu p q
  · refine (Idealize.ShloMosaic.PlainMatmul.matmul_zero_apply (M := 400) (K := 128) (N := 128)
      dot_S400x128_S128x128_S400x128_1_0_0_1_n_n rfl rfl rfl rfl rfl rfl none _ wl p q).trans ?_
    refine Finset.sum_congr rfl fun c _ => congrArg (fun s : EReal => s * wl (ix2 c q)) ?_
    exact Idealize.ShloMosaic.PlainMatmul.matmul_zero_apply (M := 400) (K := 10000) (N := 128)
      dot_S400x10000_S10000x128_S400x128_1_0_0_1_n_n rfl rfl rfl rfl rfl rfl none _ _ p c

/-- With the block's rows read off rows `R` of the arrays and the halves off the weight rows `c`, `128 + c`, the
    stored value at `(p, q)` is the layer at `(R, q)`. -/
theorem stored_is_layer (xs : (⟨2, ![10000, 128]⟩ : Shape).Idx → EReal) (adj : (⟨2, ![10000, 10000]⟩ : Shape).Idx → EReal)
    (w : (⟨2, ![256, 128]⟩ : Shape).Idx → EReal)
    (a : Vec Ideal S400x10000 .f32) (xr : Vec Ideal S400x128 .f32) (wu wl : Vec Ideal S128x128 .f32)
    (R : Fin 10000) (p : Fin 400) (q : Fin 128)
    (ha : ∀ k : Fin 10000, a (ix2 p k) = adj (ix2 R k))
    (hxr : ∀ c : Fin 128, xr (ix2 p c) = xs (ix2 R c))
    (hwu : ∀ c : Fin 128, wu (ix2 c q) = w (ix2 (lo c) q))
    (hwl : ∀ c : Fin 128, wl (ix2 c q) = w (ix2 (hi c) q)) :
    k0_pay1 (F := Ideal) a xs xr wu wl (ix2 p q) = layer xs adj w (ix2 R q) := by
  rw [stored_apply, layer_apply]
  unfold combine aggr
  refine congrArg₂ max (congrArg₂ (fun s u : EReal => s + u) (Finset.sum_congr rfl fun c _ => ?_)
    (Finset.sum_congr rfl fun c _ => ?_)) rfl
  · rw [hxr, hwu]
  · rw [hwl]
    exact congrArg (fun s : EReal => s * w (ix2 (hi c) q)) (Finset.sum_congr rfl fun k _ => by rw [ha])

end Cert.Sage.Body

end
-- ==== Proof.LibRectRead.lean ====
/-
  A unit-stride rectangle of a two-axis array read at coordinates.

  A load through the rectangle with offsets `(o₀, o₁)` and extents `(m₀, m₁)` reads, at the rectangle's own
  coordinates `(r, j)`, the array at `(o₀ + r, o₁ + j)`.
-/
import Idealize.ShloMosaic.Lib.Pipeline.Value
import Idealize.ShloMosaic.Lib.ValueIdx

namespace Cert.Lib.RectRead

open Idealize.ShloMosaic Idealize.ShloMosaic.ValueIdx

/-- Entry `(r, j)` of the rectangle is entry `(o₀ + r, o₁ + j)` of the array. -/
theorem ld_unit2_apply {n0 n1 m0 m1 : ℕ} {Val : EltTy → Type} {e : EltTy} (X : (⟨2, ![n0, n1]⟩ : Shape).Idx → Val e)
    (o0 o1 : ℕ) (inb : ∀ a, (![o0, o1] : Fin 2 → ℕ) a + (![m0, m1] : Fin 2 → ℕ) a ≤ (⟨2, ![n0, n1]⟩ : Shape).size a)
    (r : Fin m0) (j : Fin m1) (p : Fin n0) (q : Fin n1) (hp : p.val = o0 + r.val) (hq : q.val = o1 + j.val) :
    View.ld X (Rect.unit (s := ⟨2, ![n0, n1]⟩) ![o0, o1] ![m0, m1] inb) (ix2 r j) = X (ix2 p q) := by
  show X _ = X _
  refine congrArg X (funext fun a => Fin.ext ?_)
  match a with
  | ⟨0, _⟩ =>
    show o0 + 1 * r.val = p.val
    omega
  | ⟨1, _⟩ =>
    show o1 + 1 * j.val = q.val
    omega

end Cert.Lib.RectRead
-- ==== Proof.BlocksToArray.lean ====
/-
  From the blocks the grid points write back to the whole output array.

  The grid has 25 points. Point `t` holds rows `400 t … 400 t + 399` of the adjacency matrix, the whole feature
  matrix and the whole weight matrix, and writes back rows `400 t … 400 t + 399` of the output. Inside the body the
  node's own features are re-read from the feature matrix at the row offset `400 t`, and the two halves of the
  weights at row offsets `0` and `128`. So what point `t` writes back at `(p, q)` is the layer at `(400 t + p, q)`
  (`written_back`): block `t` of the layer of the argument arrays. Row `r` of the output lies in the block of point
  `r / 400`, so the 25 blocks cover the array (`covered`) and the array ends holding the layer (`output_is_layer`).
-/
import proofs.«123439_g41875931136731_cont_8to1_b_1800_19_alg».proof.Proof.Gen.KernelIdeal.Value
import proofs.«123439_g41875931136731_cont_8to1_b_1800_19_alg».proof.Proof.CaseIsPayload
import proofs.«123439_g41875931136731_cont_8to1_b_1800_19_alg».proof.Proof.PayloadAtIndex
import proofs.«123439_g41875931136731_cont_8to1_b_1800_19_alg».proof.Proof.LibRectRead

set_option maxRecDepth 16384

noncomputable section

open scoped BigOperators

namespace Cert.Sage.Array

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

/-- The block index of each window at each grid point, and the point's one coordinate: the adjacency and output
    blocks move down one block per point, the feature and weight windows stay at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ ((grid0.coords t) 0).val = t.val :=
  (by decide +kernel : ∀ t : Fin grid0.N, _)

/-- The feature window's one block is the feature matrix. -/
theorem features_whole (c : Dev nD) (t : Fin cfg0.N) : (iblk m c 1 t : Vec Ideal S10000x128 .f32) = V m c main_arg0 := by
  obtain ⟨-, -, e10, e11, -⟩ := block_indices t
  funext j
  show V m c main_arg0 (((cfg0.win 1).blk t).view.emb j) = V m c main_arg0 j
  refine congrArg (V m c main_arg0) (funext fun a => Fin.ext ?_)
  match a with
  | ⟨0, _⟩ => show win0_1.index t (0 : Fin 2) * 10000 + 1 * (j 0).val = (j 0).val; omega
  | ⟨1, _⟩ => show win0_1.index t (1 : Fin 2) * 128 + 1 * (j 1).val = (j 1).val; omega

/-- The weight window's one block is the weight matrix. -/
theorem weights_whole (c : Dev nD) (t : Fin cfg0.N) : (iblk m c 2 t : Vec Ideal S256x128 .f32) = V m c main_arg2 := by
  obtain ⟨-, -, -, -, e20, e21, -⟩ := block_indices t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 256 + 1 * (j 0).val = (j 0).val; omega
  | ⟨1, _⟩ => show win0_2.index t (1 : Fin 2) * 128 + 1 * (j 1).val = (j 1).val; omega

/-- Row `p` of the adjacency block at point `t` is row `400 t + p` of the adjacency matrix. -/
theorem adjacency_rows (c : Dev nD) (t : Fin cfg0.N) (p : Fin 400) (k : Fin 10000) (R : Fin 10000)
    (hR : R.val = 400 * t.val + p.val) :
    (iblk m c 0 t : Vec Ideal S400x10000 .f32) (ix2 p k) = V m c main_arg1 (ix2 R k) := by
  obtain ⟨e00, e01, -⟩ := block_indices t
  show V m c main_arg1 (((cfg0.win 0).blk t).view.emb (ix2 p k)) = V m c main_arg1 (ix2 R k)
  refine congrArg (V m c main_arg1) (funext fun a => Fin.ext ?_)
  match a with
  | ⟨0, _⟩ => show win0_0.index t (0 : Fin 2) * 400 + 1 * p.val = R.val; omega
  | ⟨1, _⟩ => show win0_0.index t (1 : Fin 2) * 10000 + 1 * k.val = k.val; omega

/-- The 400 rows the body re-reads from the feature matrix at point `t` start at row `400 t`. -/
theorem own_rows (c : Dev nD) (t : Fin cfg0.N) (p : Fin 400) (f : Fin 128) (R : Fin 10000)
    (hR : R.val = 400 * t.val + p.val) :
    View.ld (V m c main_arg0) (Rect.unit (s := S10000x128) (k0_off1 (grid0.coords t)) S400x128.size (k0_off1_inb (grid0.coords t))) (ix2 p f)
      = V m c main_arg0 (ix2 R f) := by
  obtain ⟨-, -, -, -, -, -, -, -, eg⟩ := block_indices t
  have e0 : k0_off1 (grid0.coords t) 0 = 400 * ((grid0.coords t) 0).val := congrFun (k0_off1_eq (grid0.coords t)) 0
  have e1 : k0_off1 (grid0.coords t) 1 = 0 := congrFun (k0_off1_eq (grid0.coords t)) 1
  show V m c main_arg0 _ = V m c main_arg0 _
  refine congrArg (V m c main_arg0) (funext fun a => Fin.ext ?_)
  match a with
  | ⟨0, _⟩ => show k0_off1 (grid0.coords t) 0 + 1 * p.val = R.val; omega
  | ⟨1, _⟩ => show k0_off1 (grid0.coords t) 1 + 1 * f.val = f.val; omega

/-- WHAT POINT `t` WRITES BACK is block `t` of the layer of the arrays as the region finds them. -/
theorem written_back (c : Dev nD) (t : Fin cfg0.N) :
    (dats m 0 c).flushed 3 t
      = ((cfg0.win 3).blk t).view.read (Elt Ideal) (layer (V m c main_arg0) (V m c main_arg1) (V m c main_arg2)) := by
  rw [Cert.KernelIdeal.Value.flushed3_A m c t, Cert.Sage.Case.left_in_buffer, features_whole m c t, weights_whole m c t]
  obtain ⟨-, -, -, -, -, -, e30, e31, -⟩ := block_indices t
  have ht : t.val < 25 := lt_of_lt_of_eq t.isLt N_0
  funext y
  obtain ⟨p, q, rfl⟩ : ∃ (p : Fin 400) (q : Fin 128), y = ix2 p q := ⟨y 0, y 1, eq_ix2 y⟩
  have hp : p.val < 400 := p.isLt
  show k0_pay1 (F := Ideal) (iblk m c 0 t) (V m c main_arg0) _ _ _ (ix2 p q)
    = layer (V m c main_arg0) (V m c main_arg1) (V m c main_arg2) (((cfg0.win 3).blk t).view.emb (ix2 p q))
  refine (Cert.Sage.Body.stored_is_layer (V m c main_arg0) (V m c main_arg1) (V m c main_arg2) (iblk m c 0 t) _ _ _
    (⟨400 * t.val + p.val, by omega⟩ : Fin 10000) p q
    (fun k => adjacency_rows m c t p k _ rfl)
    (fun f => own_rows m c t p f _ rfl)
    (fun f => Cert.Lib.RectRead.ld_unit2_apply (n0 := 256) (n1 := 128) (m0 := 128) (m1 := 128) (Val := Elt Ideal) (e := .f32)
      (V m c main_arg2) 0 0 inb_S256x128_S128x128_0_0 f q (lo f) q (by show f.val = 0 + f.val; omega) (by omega))
    (fun f => Cert.Lib.RectRead.ld_unit2_apply (n0 := 256) (n1 := 128) (m0 := 128) (m1 := 128) (Val := Elt Ideal) (e := .f32)
      (V m c main_arg2) 128 0 inb_S256x128_S128x128_128_0 f q (hi f) q (by show 128 + f.val = 128 + f.val; rfl) (by omega))).trans ?_
  refine congrArg (layer (V m c main_arg0) (V m c main_arg1) (V m c main_arg2)) (funext fun a => Fin.ext ?_)
  match a with
  | ⟨0, _⟩ => show 400 * t.val + p.val = win0_3.index t (0 : Fin 2) * 400 + 1 * p.val; omega
  | ⟨1, _⟩ => show q.val = win0_3.index t (1 : Fin 2) * 128 + 1 * q.val; omega

/-- An index of the output array is in point `t`'s block iff each coordinate is in the block's range on its axis. -/
theorem mem_block (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Row `r` of the output is in the block of point `r / 400`: the 25 blocks cover the array. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  have hlt : (i 0).val / 400 < cfg0.N := by rw [hN]; omega
  obtain ⟨-, -, -, -, -, -, e30, e31, -⟩ := block_indices ⟨(i 0).val / 400, hlt⟩
  refine ⟨⟨(i 0).val / 400, hlt⟩, flush0_3 _, ?_⟩
  rw [mem_block]
  intro a
  match a with
  | ⟨0, _⟩ =>
    show win0_3.index ⟨(i 0).val / 400, hlt⟩ (0 : Fin 2) * 400 ≤ (i 0).val
      ∧ (i 0).val < win0_3.index ⟨(i 0).val / 400, hlt⟩ (0 : Fin 2) * 400 + 400
    rw [e30]
    show (i 0).val / 400 * 400 ≤ (i 0).val ∧ (i 0).val < (i 0).val / 400 * 400 + 400
    omega
  | ⟨1, _⟩ =>
    show win0_3.index ⟨(i 0).val / 400, hlt⟩ (1 : Fin 2) * 128 ≤ (i 1).val
      ∧ (i 1).val < win0_3.index ⟨(i 0).val / 400, hlt⟩ (1 : Fin 2) * 128 + 128
    rw [e31]
    omega

/-- THE OUTPUT ARRAY after the run is the layer of the arrays as the region finds them. -/
theorem output_is_layer (c : Dev nD) :
    (dats m 0 c).arrAt 3 cfg0.N = layer (V m c main_arg0) (V m c main_arg1) (V m c main_arg2) :=
  (dats m 0 c).arrAt_eq_of_cover 3 (layer (V m c main_arg0) (V m c main_arg1) (V m c main_arg2))
    (fun t _ => written_back m c t) covered

/-- The kernel's run, read: the output array at the layer of the argument arrays, the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (output_is_layer m c), (h c).2⟩)
    (Cert.KernelIdeal.Value.run_blocks m ρ)

end Cert.Sage.Array

end
-- ==== Proof.lean ====
/-
  A dense-adjacency mean-aggregation graph layer: the fused kernel against the reference.

  Both programs take node features `x` (10000 by 128), a dense adjacency matrix `adj` (10000 by 10000) and a weight
  matrix `w` (256 by 128). The reference computes `relu (concat [x, adj · x] · w)`: it lays each node's own features
  and its aggregated neighbourhood side by side as a row of 256 entries and contracts that row with all 256 weight
  rows. The kernel walks the rows in 25 blocks of 400; for a block it forms the neighbourhood rows `adj_block · x`,
  multiplies the block's own rows of `x` by the upper 128 weight rows and the neighbourhood rows by the lower 128,
  adds the two products and clamps at zero.

  Over the extended reals every float operation is exact and a change of float format is the identity, so both
  compute, at `(r, q)`,

      max (Σ_c x (r, c) · w (c, q) + Σ_c (Σₖ adj (r, k) · x (k, c)) · w (128 + c, q)) 0

  (`Cert.Sage.layer`). On the reference's side this is the sum over 256 columns split at column 128
  (`Cert.Sage.Ref.result_is_layer`); on the kernel's side it is the stored value of one grid point read at an index,
  the blocks' rows placed in the arrays, and the 25 blocks covering the output (`Cert.Sage.Array.run`). The split
  of the sum uses only that addition is commutative and associative, so the finiteness of the inputs is not used.
  The idealized kernel is the kernel's own text read over the extended reals: no operation was rewritten.
-/
import proofs.«123439_g41875931136731_cont_8to1_b_1800_19_alg».proof.Defs
import proofs.«123439_g41875931136731_cont_8to1_b_1800_19_alg».proof.Proof.Gen.Kernel
import proofs.«123439_g41875931136731_cont_8to1_b_1800_19_alg».proof.Proof.Gen.Kernel.Skeleton
import proofs.«123439_g41875931136731_cont_8to1_b_1800_19_alg».proof.Proof.Gen.Kernel.Launch
import proofs.«123439_g41875931136731_cont_8to1_b_1800_19_alg».proof.Proof.Gen.Kernel.Points
import proofs.«123439_g41875931136731_cont_8to1_b_1800_19_alg».proof.Proof.Gen.Kernel.Frame
import proofs.«123439_g41875931136731_cont_8to1_b_1800_19_alg».proof.Proof.Gen.KernelIdeal
import proofs.«123439_g41875931136731_cont_8to1_b_1800_19_alg».proof.Proof.Gen.KernelIdeal.Skeleton
import proofs.«123439_g41875931136731_cont_8to1_b_1800_19_alg».proof.Proof.Gen.KernelIdeal.Launch
import proofs.«123439_g41875931136731_cont_8to1_b_1800_19_alg».proof.Proof.Gen.KernelIdeal.Points
import proofs.«123439_g41875931136731_cont_8to1_b_1800_19_alg».proof.Proof.Gen.KernelIdeal.Frame
import proofs.«123439_g41875931136731_cont_8to1_b_1800_19_alg».proof.Proof.Gen.ReferenceIdeal
import proofs.«123439_g41875931136731_cont_8to1_b_1800_19_alg».proof.Proof.Gen.KernelIdeal.Value
import proofs.«123439_g41875931136731_cont_8to1_b_1800_19_alg».proof.Proof.Gen.ReferenceIdeal.Run
import proofs.«123439_g41875931136731_cont_8to1_b_1800_19_alg».proof.Proof.Gen.ReferenceIdeal.Read
import proofs.«123439_g41875931136731_cont_8to1_b_1800_19_alg».proof.Proof.Gen.Pre_finite_inputs
import proofs.«123439_g41875931136731_cont_8to1_b_1800_19_alg».proof.Proof.SageSpec
import proofs.«123439_g41875931136731_cont_8to1_b_1800_19_alg».proof.Proof.RefIsLayer
import proofs.«123439_g41875931136731_cont_8to1_b_1800_19_alg».proof.Proof.BlocksToArray
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten to idealize it. -/
theorem preserves : Cert.preserves_Kernel_KernelIdeal := trivial

/-- From memories that agree on the three arguments, the kernel's output array and the reference's result both end
    holding the layer of the arguments. -/
theorem algebraic : Cert.algebraic_KernelIdeal_ReferenceIdeal := by
  intro m ρ m' ρ' _ hagree
  refine ⟨_, Cert.Sage.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Sage.Ref.result_is_layer, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
